-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel

variable [Facts]

def fn {F : FTy → Type} [FloatOps F] (main_arg0 : FVec F S16384x4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  main_v3
-- ==== Kernel.lean ====
abbrev S16384x4096 : Shape := ⟨2, ![16384, 4096]⟩
abbrev S512x4096 : Shape := ⟨2, ![512, 4096]⟩

abbrev nBuf : Space → Nat
  | .hbm => 2
  | .vmem => 4
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S512x4096_S512x4096_0_0 : ∀ a, (![0, 0] : Fin 2 → Nat) a + S512x4096.size a ≤ S512x4096.size a
  h_S512x4096 : 0 < S512x4096.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .f32 = 32 ∨ (Rect.block (s := S16384x4096) S512x4096.size (cc0_transform_1 i) (hinb0_1 i)).WholeWords (EltTy.packing .f32)

variable [Facts₀]

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S7 : Shape := ⟨1, ![7]⟩
abbrev S9 : Shape := ⟨1, ![9]⟩
abbrev S_ : Shape := ⟨0, ![]⟩
abbrev S1 : Shape := ⟨1, ![1]⟩
abbrev S6 : Shape := ⟨1, ![6]⟩
abbrev S8 : Shape := ⟨1, ![8]⟩

abbrev nBuf : Space → Nat
  | .hbm => 103
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S7, .f32⟩
  | .hbm, ⟨2, _⟩ => ⟨S9, .f32⟩
  | .hbm, ⟨3, _⟩ => ⟨S16384x4096, .f32⟩
  | .hbm, ⟨4, _⟩ => ⟨S_, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S1, .f32⟩
  | .hbm, ⟨11, _⟩ => ⟨S_, .f32⟩
  | .hbm, ⟨12, _⟩ => ⟨S16384x4096, .f32⟩
  | .hbm, ⟨13, _⟩ => ⟨S6, .f32⟩
  | .hbm, ⟨14, _⟩ => ⟨S6, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S_, .f32⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .hbm, ⟨27, _⟩ => ⟨S16384x4096, .f32⟩
  | .hbm, ⟨28, _⟩ => ⟨S16384x4096, .f32⟩
  | .hbm, ⟨29, _⟩ => ⟨S16384x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S16384x4096, .f32⟩
  | .hbm, ⟨34, _⟩ => ⟨S16384x4096, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S16384x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S_, .f32⟩
  | .hbm, ⟨50, _⟩ => ⟨S16384x4096, .f32⟩
  | .hbm, ⟨51, _⟩ => ⟨S16384x4096, .f32⟩
  | .hbm, ⟨52, _⟩ => ⟨S1, .f32⟩
  | .hbm, ⟨53, _⟩ => ⟨S_, .f32⟩
  | .hbm, ⟨54, _⟩ => ⟨S16384x4096, .f32⟩
  | .hbm, ⟨55, _⟩ => ⟨S8, .f32⟩
  | .hbm, ⟨56, _⟩ => ⟨S8, .f32⟩
  | .hbm, ⟨57, _⟩ => ⟨S1, .f32⟩
  | .hbm, ⟨58, _⟩ => ⟨S_, .f32⟩
  | .hbm, ⟨59, _⟩ => ⟨S1, .f32⟩
  | .hbm, ⟨60, _⟩ => ⟨S_, .f32⟩
  | .hbm, ⟨61, _⟩ => ⟨S1, .f32⟩
  | .hbm, ⟨62, _⟩ => ⟨S_, .f32⟩
  | .hbm, ⟨63, _⟩ => ⟨S1, .f32⟩
  | .hbm, ⟨64, _⟩ => ⟨S_, .f32⟩
  | .hbm, ⟨65, _⟩ => ⟨S1, .f32⟩
  | .hbm, ⟨66, _⟩ => ⟨S_, .f32⟩
  | .hbm, ⟨67, _⟩ => ⟨S1, .f32⟩
  | .hbm, ⟨68, _⟩ => ⟨S_, .f32⟩
  | .hbm, ⟨69, _⟩ => ⟨S1, .f32⟩
  | .hbm, ⟨70, _⟩ => ⟨S_, .f32⟩
  | .hbm, ⟨71, _⟩ => ⟨S1, .f32⟩
  | .hbm, ⟨72, _⟩ => ⟨S_, .f32⟩
  | .hbm, ⟨73, _⟩ => ⟨S16384x4096, .f32⟩
  | .hbm, ⟨74, _⟩ => ⟨S16384x4096, .f32⟩
  | .hbm, ⟨75, _⟩ => ⟨S16384x4096, .f32⟩
  | .hbm, ⟨76, _⟩ => ⟨S16384x4096, .f32⟩
  | .hbm, ⟨77, _⟩ => ⟨S16384x4096, .f32⟩
  | .hbm, ⟨78, _⟩ => ⟨S16384x4096, .f32⟩
  | .hbm, ⟨79, _⟩ => ⟨S16384x4096, .f32⟩
  | .hbm, ⟨80, _⟩ => ⟨S16384x4096, .f32⟩
  | .hbm, ⟨81, _⟩ => ⟨S16384x4096, .f32⟩
  | .hbm, ⟨82, _⟩ => ⟨S16384x4096, .f32⟩
  | .hbm, ⟨83, _⟩ => ⟨S16384x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S16384x4096, .f32⟩
  | .hbm, ⟨88, _⟩ => ⟨S16384x4096, .f32⟩
  | .hbm, ⟨89, _⟩ => ⟨S16384x4096, .f32⟩
  | .hbm, ⟨90, _⟩ => ⟨S16384x4096, .f32⟩
  | .hbm, ⟨91, _⟩ => ⟨S16384x4096, .f32⟩
  | .hbm, ⟨92, _⟩ => ⟨S16384x4096, .f32⟩
  | .hbm, ⟨93, _⟩ => ⟨S16384x4096, .f32⟩
  | .hbm, ⟨94, _⟩ => ⟨S16384x4096, .f32⟩
  | .hbm, ⟨95, _⟩ => ⟨S16384x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S_, .f32⟩
  | .hbm, ⟨100, _⟩ => ⟨S16384x4096, .f32⟩
  | .hbm, ⟨101, _⟩ => ⟨S16384x4096, .i1⟩
  | .hbm, ⟨102, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst_2 : Ref sig .tc := ⟨.hbm, 46, rfl⟩
abbrev main_v42 : Ref sig .tc := ⟨.hbm, 47, rfl⟩
abbrev main_v43 : Ref sig .tc := ⟨.hbm, 48, rfl⟩
abbrev main_cst_3 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩
abbrev main_v68 : Ref sig .tc := ⟨.hbm, 74, rfl⟩
abbrev main_v69 : Ref sig .tc := ⟨.hbm, 75, rfl⟩
abbrev main_v70 : Ref sig .tc := ⟨.hbm, 76, rfl⟩
abbrev main_v71 : Ref sig .tc := ⟨.hbm, 77, rfl⟩
abbrev main_v72 : Ref sig .tc := ⟨.hbm, 78, rfl⟩
abbrev main_v73 : Ref sig .tc := ⟨.hbm, 79, rfl⟩
abbrev main_v74 : Ref sig .tc := ⟨.hbm, 80, rfl⟩
abbrev main_v75 : Ref sig .tc := ⟨.hbm, 81, rfl⟩
abbrev main_v76 : Ref sig .tc := ⟨.hbm, 82, rfl⟩
abbrev main_v77 : Ref sig .tc := ⟨.hbm, 83, rfl⟩
abbrev main_v78 : Ref sig .tc := ⟨.hbm, 84, rfl⟩
abbrev main_v79 : Ref sig .tc := ⟨.hbm, 85, rfl⟩
abbrev main_v80 : Ref sig .tc := ⟨.hbm, 86, rfl⟩
abbrev main_v81 : Ref sig .tc := ⟨.hbm, 87, rfl⟩
abbrev main_v82 : Ref sig .tc := ⟨.hbm, 88, rfl⟩
abbrev main_v83 : Ref sig .tc := ⟨.hbm, 89, rfl⟩
abbrev main_v84 : Ref sig .tc := ⟨.hbm, 90, rfl⟩
abbrev main_v85 : Ref sig .tc := ⟨.hbm, 91, rfl⟩
abbrev main_v86 : Ref sig .tc := ⟨.hbm, 92, rfl⟩
abbrev main_v87 : Ref sig .tc := ⟨.hbm, 93, rfl⟩
abbrev main_v88 : Ref sig .tc := ⟨.hbm, 94, rfl⟩
abbrev main_v89 : Ref sig .tc := ⟨.hbm, 95, rfl⟩
abbrev main_v90 : Ref sig .tc := ⟨.hbm, 96, rfl⟩
abbrev main_v91 : Ref sig .tc := ⟨.hbm, 97, rfl⟩
abbrev main_v92 : Ref sig .tc := ⟨.hbm, 98, rfl⟩
abbrev main_cst_4 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  slices_S7_S1_6 : S7.Slices ![6] S1
  shapeCasts_S1_S_ : S1.ShapeCasts S_
  slices_S7_S6_0 : S7.Slices ![0] S6
  slices_S6_S1_0 : S6.Slices ![0] S1
  slices_S6_S1_1 : S6.Slices ![1] S1
  slices_S6_S1_2 : S6.Slices ![2] S1
  slices_S6_S1_3 : S6.Slices ![3] S1
  slices_S6_S1_4 : S6.Slices ![4] S1
  slices_S6_S1_5 : S6.Slices ![5] S1
  slices_S9_S1_8 : S9.Slices ![8] S1
  slices_S9_S8_0 : S9.Slices ![0] S8
  slices_S8_S1_0 : S8.Slices ![0] S1
  slices_S8_S1_1 : S8.Slices ![1] S1
  slices_S8_S1_2 : S8.Slices ![2] S1
  slices_S8_S1_3 : S8.Slices ![3] S1
  slices_S8_S1_4 : S8.Slices ![4] S1
  slices_S8_S1_5 : S8.Slices ![5] S1
  slices_S8_S1_6 : S8.Slices ![6] S1
  slices_S8_S1_7 : S8.Slices ![7] S1

variable [Facts₀]

class Facts : Prop extends Facts₀ where

variable [Facts]
-- ==== Proof.LibRsqrtVsSqrt.lean ====
/-
  Extended-real facts behind a layer that divides by a standard deviation.

  On the extended reals a product with the reciprocal square root, a · rsqrt b, and a quotient by the square root,
  a / √b, agree wherever 0 < b (at a positive real both are a · (√b)⁻¹; at +∞ both are a · 0) and differ at b = 0
  and below.  A variance of the form (Σ_k d_k · q_k) + s with d, q ≥ 0 and s > 0 is positive, 1 − tanh² is never
  negative, a square is never negative, and a matrix product accumulated into zero is the host's contraction.
  Everything here is stated for any shape.
-/
import Idealize.ShloMosaic.PureOps.Ideal
import Idealize.ShloMosaic.PureOps.Ideal.Laws

noncomputable section

namespace Cert.LibRsqrtVsSqrt

open Idealize.ShloMosaic

/-- Where 0 < b, multiplying by the reciprocal square root is dividing by the square root. -/
theorem mul_rsqrt_eq_div_sqrt (a b : EReal) (hb : 0 < b) : a * Ideal.rsqrt b = Ideal.div a (Ideal.sqrt b) := by
  induction b using EReal.rec with
  | bot => exact absurd hb (by simp)
  | coe r =>
    have hr : 0 < r := EReal.coe_pos.mp hb
    have hs : Real.sqrt r ≠ 0 := (Real.sqrt_pos.mpr hr).ne'
    have e1 : Ideal.rsqrt (r : EReal) = (((Real.sqrt r)⁻¹ : ℝ) : EReal) := by
      show (if r < 0 then (⊥ : EReal) else if r = 0 then ⊤ else (((Real.sqrt r)⁻¹ : ℝ) : EReal)) = _
      rw [if_neg (not_lt.mpr hr.le), if_neg hr.ne']
    have e2 : Ideal.sqrt (r : EReal) = ((Real.sqrt r : ℝ) : EReal) := by
      show (if r < 0 then (⊥ : EReal) else ((Real.sqrt r : ℝ) : EReal)) = _
      rw [if_neg (not_lt.mpr hr.le)]
    rw [e1, e2]
    unfold Ideal.div
    rw [if_neg (by exact_mod_cast hs), EReal.coe_inv]
  | top =>
    have e1 : Ideal.rsqrt (⊤ : EReal) = 0 := rfl
    have e2 : Ideal.sqrt (⊤ : EReal) = ⊤ := rfl
    rw [e1, e2]
    unfold Ideal.div
    rw [if_neg EReal.top_ne_zero, EReal.inv_top]

/-- The same entry by entry: the kernel's x · rsqrt v is the host's x / √v on arrays whose v is positive throughout. -/
theorem mulf_rsqrt_eq_divf_sqrt {s : Shape} (a b : FVec Ideal s .f32) (hb : ∀ i, 0 < b i) :
    mulf a (rsqrt b) = Host.divf a (Host.sqrt b) := by
  funext i
  exact mul_rsqrt_eq_div_sqrt (a i) (b i) (hb i)

/-- 1 − 1 is 0 on the extended reals (no cancellation law there: through the reals). -/
theorem one_sub_one : (1 : EReal) - 1 = 0 := by
  rw [← EReal.coe_one, ← EReal.coe_sub, sub_self, EReal.coe_zero]

/-- tanh of any extended real lies in [−1, 1], so 1 − tanh² is never negative. -/
theorem one_sub_tanh_sq_nonneg (z : EReal) : (0 : EReal) ≤ 1 - Ideal.tanh z * Ideal.tanh z := by
  induction z using EReal.rec with
  | bot =>
    have e : Ideal.tanh (⊥ : EReal) = -1 := rfl
    rw [e, neg_mul_neg, one_mul, one_sub_one]
  | coe r =>
    have e : Ideal.tanh (r : EReal) = ((Real.tanh r : ℝ) : EReal) := rfl
    rw [e, ← EReal.coe_mul, ← EReal.coe_one, ← EReal.coe_sub, EReal.coe_nonneg]
    have h1 := Real.tanh_lt_one r
    have h2 := Real.neg_one_lt_tanh r
    nlinarith
  | top =>
    have e : Ideal.tanh (⊤ : EReal) = 1 := rfl
    rw [e, one_mul, one_sub_one]

/-- A square is never negative, at the infinities too. -/
theorem mul_self_nonneg' (m : EReal) : 0 ≤ m * m :=
  EReal.mul_nonneg_iff.mpr ((le_total 0 m).elim (fun h => .inl ⟨h, h⟩) (fun h => .inr ⟨h, h⟩))

/-- A sum of products of non-negative factors, plus a positive term, is positive. -/
theorem sum_mul_add_pos {ι : Type} (K : Finset ι) (d q : ι → EReal) (s : EReal)
    (hd : ∀ k, 0 ≤ d k) (hq : ∀ k, 0 ≤ q k) (hs : 0 < s) : 0 < (∑ k ∈ K, d k * q k) + s :=
  lt_of_lt_of_le hs (le_add_of_nonneg_left (Finset.sum_nonneg fun k _ => EReal.mul_nonneg (hd k) (hq k)))

/-- A matrix product accumulated into the zero array is the host's contraction of the same operands. -/
theorem matmul_zero_eq_dotGeneral {sl sr so : Shape} (d : DotDims sl sr so) (prec : Option ContractPrecision)
    (a : FVec Ideal sl .f32) (b : FVec Ideal sr .f32) :
    matmul d prec a b (constant so .f32 0x00000000#32) = Host.dotGeneral d prec a b := by
  funext j
  rw [show matmul d prec a b (constant so .f32 0x00000000#32) j
        = FloatOps.matmul d prec a b (constant so .f32 0x00000000#32) j from rfl,
      Ideal.matmul_constant_zero_apply,
      show Host.dotGeneral d prec a b j = FloatOps.dotGeneral d prec .single a b j from rfl,
      Ideal.dotGeneral_apply]

/-- The variance a layer divides by, (d · q)(j) + s(j), is positive at every entry when d, q ≥ 0 and s > 0. -/
theorem dot_add_pos {sl sr so : Shape} (dd : DotDims sl sr so) (prec : Option ContractPrecision)
    (d : FVec Ideal sl .f32) (q : FVec Ideal sr .f32) (s : FVec Ideal so .f32)
    (hd : ∀ i, 0 ≤ d i) (hq : ∀ i, 0 ≤ q i) (hs : ∀ j, 0 < s j) (j : so.Idx) :
    0 < addf (Host.dotGeneral dd prec d q) s j := by
  show 0 < FloatOps.dotGeneral dd prec .single d q j + s j
  rw [Ideal.dotGeneral_apply]
  exact sum_mul_add_pos _ (fun k => d (dd.lhsIdx j k)) (fun k => q (dd.rhsIdx j k)) (s j) (fun _ => hd _) (fun _ => hq _) (hs j)

/-- The kernel's tanh and the host's are one function. -/
theorem tanh_eq_host {s : Shape} (v : FVec Ideal s .f32) : tanh v = Host.tanh v := rfl

end Cert.LibRsqrtVsSqrt

end
-- ==== Proof.Entry.lean ====
/-
  The scaled modified Bessel function of order zero in its two classical polynomial pieces, entry by entry on the
  extended reals.

  With a = |z| (the larger of z and −z) both programs compute, at every entry z,

      if a ≤ 3.75 then  exp(−a) · P((a / 3.75)²)   else   Q(3.75 / b) ÷ √b,      b = max(a, 3.75),

  where P has degree 6 and Q degree 8, both evaluated by Horner's rule from the highest coefficient down, and
  every coefficient is the exact binary value of a 32-bit float word.  The two spellings differ in two places:
  one writes the exponent as 0 − a and the other as −a, which is one extended real; and one multiplies Q by
  the reciprocal square root of b where the other divides by the square root of b.  Since b ≥ 3.75 > 0, the
  product and the quotient agree (for b = +∞ too: both are Q · 0), and nothing here needs z to be finite.
-/
import Idealize.ShloMosaic.PureOps.Ideal
import Idealize.ShloMosaic.PureOps.Ideal.Laws
import proofs.«147453_j14267881357866_2_alg».proof.Proof.LibRsqrtVsSqrt

noncomputable section

namespace Cert.BesselEntry

open Idealize.ShloMosaic

/-- The extended real a 32-bit float word denotes. -/
abbrev word (b : BitVec 32) : EReal := Ideal.ofBits .f32 b

/-- The branch point 3.75, as its float word. -/
abbrev knee : EReal := word 0x40700000#32

/-- |z| on the extended reals: the larger of z and −z. -/
def mag (z : EReal) : EReal := max z (-z)

/-- |z| kept away from zero: max(|z|, 3.75). -/
def held (z : EReal) : EReal := max (mag z) knee

/-- The degree-6 polynomial of the small branch, by Horner's rule from the top coefficient. -/
def smallPoly (t : EReal) : EReal :=
  (((((word 0x3B961EBB#32 * t + word 0x3D13C544#32) * t + word 0x3E882DA4#32) * t + word 0x3F9A76C2#32) * t
    + word 0x4045C19E#32) * t + word 0x4060FFF7#32) * t + word 0x3F800000#32

/-- The degree-8 polynomial of the large branch, by Horner's rule from the top coefficient. -/
def largePoly (u : EReal) : EReal :=
  (((((((word 0x3B8092F8#32 * u + word 0xBC86F95E#32) * u + word 0x3CD7E738#32) * u + word 0xBCA89139#32) * u
    + word 0x3C161F9C#32) * u + word 0xBACE860A#32) * u + word 0x3B13AA41#32) * u + word 0x3C59AD30#32) * u
    + word 0x3ECC422A#32

/-- (|z| / 3.75)², the small polynomial's argument. -/
def ratioSq (z : EReal) : EReal := Ideal.div (mag z) knee * Ideal.div (mag z) knee

/-- The small branch with the exponent written −|z|. -/
def smallNeg (z : EReal) : EReal := Ideal.exp (-(mag z)) * smallPoly (ratioSq z)

/-- The small branch with the exponent written 0 − |z|. -/
def smallSub (z : EReal) : EReal := Ideal.exp (word 0x00000000#32 - mag z) * smallPoly (ratioSq z)

/-- The large branch as a quotient by the square root. -/
def largeDiv (z : EReal) : EReal := Ideal.div (largePoly (Ideal.div knee (held z))) (Ideal.sqrt (held z))

/-- The large branch as a product with the reciprocal square root. -/
def largeMul (z : EReal) : EReal := largePoly (Ideal.div knee (held z)) * Ideal.rsqrt (held z)

/-- The entry in the quotient spelling. -/
def entryDiv (z : EReal) : EReal := Scalar.select (Ideal.cmp .ole (mag z) knee) (smallNeg z) (largeDiv z)

/-- The entry in the product spelling. -/
def entryMul (z : EReal) : EReal := Scalar.select (Ideal.cmp .ole (mag z) knee) (smallSub z) (largeMul z)

/-- The word of 3.75 denotes the real 3.75. -/
theorem knee_eq : knee = ((3.75 : ℝ) : EReal) := by
  simp [Ideal.ofBits, Ideal.ieee, -EReal.coe_mul]; norm_num

theorem knee_pos : 0 < knee := by
  rw [knee_eq]; exact_mod_cast (by norm_num : (0 : ℝ) < 3.75)

/-- max(|z|, 3.75) is positive, whatever z. -/
theorem held_pos (z : EReal) : 0 < held z := lt_of_lt_of_le knee_pos (le_max_right _ _)

/-- 0 − a is −a on the extended reals. -/
theorem smallSub_eq (z : EReal) : smallSub z = smallNeg z := by
  unfold smallSub smallNeg
  rw [show word 0x00000000#32 = 0 from Ideal.ofBits_zero_f32, zero_sub]

/-- Above a positive denominator the product with the reciprocal root is the quotient by the root. -/
theorem largeMul_eq (z : EReal) : largeMul z = largeDiv z :=
  Cert.LibRsqrtVsSqrt.mul_rsqrt_eq_div_sqrt _ _ (held_pos z)

/-- The two spellings of an entry are one extended real. -/
theorem entryMul_eq (z : EReal) : entryMul z = entryDiv z := by
  unfold entryMul entryDiv
  rw [smallSub_eq, largeMul_eq]

end Cert.BesselEntry

end
-- ==== Proof.KernelValue.lean ====
/-
  What the kernel's result array holds after the run, at the extended reals.

  The grid has 32 points; point t stages rows 512·t … 512·t + 511 of the argument (all 4096 columns), applies the
  entry formula to every element of that block, and writes the block back to the same rows of the result.  The
  body loads its whole block once and stores its whole block once, and everything in between is pointwise, so
  the value stored at an element of the block is the entry formula (in its product spelling) of the argument
  at the same element.  The input and the output windows move together (same block index at every point), each
  block index is taken by some point, and the 32 blocks of 512 rows tile the 16384 rows: hence the result array is
  the entry formula of the argument array, index by index.
-/
import proofs.«147453_j14267881357866_2_alg».proof.Proof.Gen.KernelIdeal.Value
import proofs.«147453_j14267881357866_2_alg».proof.Proof.Entry
import Idealize.ShloMosaic.Lib.Pipeline.Value

set_option maxRecDepth 16384

noncomputable section

namespace Cert.KernelIdeal.BesselValue

open Cert.KernelIdeal Cert.KernelIdeal.Gen Idealize.ShloMosaic Idealize.ShloMosaic.TcCoe Idealize.SL.Sem
open Idealize.ShloMosaic.Pipeline (Dat)
open Cert.BesselEntry

variable (m : (ℓ : Loc nD τ sig) → Buf (Elt Ideal) ℓ) (ρ : Dev nD → PrngReg)

/-- The entry formula (product spelling) applied to every element of an array of the argument's shape. -/
def ofArray (x : S16384x4096.Idx → Elt Ideal .f32) : S16384x4096.Idx → Elt Ideal .f32 :=
  fun i => entryMul (x i)

/-- The body's stored value at an element of the block is the entry formula of the loaded block at that element:
    every operation between the load and the store is pointwise. -/
theorem stored_apply (x0 : Vec Ideal S512x4096 .f32) (y : S512x4096.Idx) :
    k0_pay1 (k0_pay2 x0) (k0_pay3 x0) (k0_pay4 x0) (k0_pay5 x0) (k0_pay6 x0) y = entryMul (x0 y) := rfl

theorem origin : (![0, 0] : Fin 2 → Nat) = fun _ => 0 := funext fun a => by fin_cases a <;> rfl

/-- Over the 32 grid points: the input window's block index is the output window's on both axes, and the
    output's is at most 31 along the rows and 0 along the columns. -/
theorem windows_together : ∀ t : Fin cfg0.N, win0_0.index t (0 : Fin 2) = win0_1.index t (0 : Fin 2)
    ∧ win0_0.index t (1 : Fin 2) = win0_1.index t (1 : Fin 2)
    ∧ win0_1.index t (0 : Fin 2) ≤ 31
    ∧ win0_1.index t (1 : Fin 2) = 0 :=
  (by decide +kernel : ∀ t : Fin grid0.N, _)

/-- Every row block 0 … 31 is some point's. -/
theorem every_block : ∀ q : Fin 32, ∃ t : Fin cfg0.N, win0_1.index t = ![q.val, 0] :=
  (by decide +kernel : ∀ q : Fin 32, ∃ t : Fin grid0.N, win0_1.index t = ![q.val, 0])

/-- What point t writes back is block t of the entry formula of the argument array. -/
theorem flushed_eq (c : Dev nD) (t : Fin cfg0.N) :
    (dats m 0 c).flushed 1 t = ((cfg0.win 1).blk t).view.read (Elt Ideal) (ofArray (V m c main_arg0)) := by
  rw [Cert.KernelIdeal.Value.flushed1]
  unfold out0_1
  rw [View.canon_unit_zero origin]
  simp only [View.ld_unit_zero (S := S512x4096) origin]
  obtain ⟨e0, e1, e2, e3⟩ := windows_together t
  funext j
  show k0_pay1 (k0_pay2 (iblk m c 0 t)) (k0_pay3 (iblk m c 0 t)) (k0_pay4 (iblk m c 0 t)) (k0_pay5 (iblk m c 0 t))
      (k0_pay6 (iblk m c 0 t)) j = entryMul (V m c main_arg0 (((cfg0.win 1).blk t).view.emb j))
  refine (stored_apply (iblk m c 0 t) j).trans ?_
  show entryMul (V m c main_arg0 (((cfg0.win 0).blk t).view.emb j)) = entryMul (V m c main_arg0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the array is in point t's block iff each coordinate is in the block's range on its axis. -/
theorem mem_block (t : Fin cfg0.N) (i : S16384x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every index of the result array lies in the block of the point that owns its row block (row / 512). -/
theorem covered (i : S16384x4096.Idx) :
    ∃ t : Fin cfg0.N, (cfg0.win 1).flush t = true ∧ i ∈ ((cfg0.win 1).blk t).view.set := by
  have hi0 : (i 0).val < 16384 := (i 0).isLt
  have hi1 : (i 1).val < 4096 := (i 1).isLt
  obtain ⟨t, ht⟩ := every_block ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- The result array after the run is the entry formula of the argument array as launched. -/
theorem final (c : Dev nD) :
    (dats m 0 c).arrAt 1 cfg0.N = ofArray (m ((c : Thread nD τ).loc main_arg0)) :=
  (dats m 0 c).arrAt_eq_of_cover 1 (ofArray (V m c main_arg0)) (fun t _ => flushed_eq m c t) covered

/-- Every weakly fair execution of the kernel's program ends with the result array at the entry formula of the
    argument array, the argument unchanged. -/
theorem run : θ_run defs (onTc (τ := τ) (main (F := Ideal))) ⟨m, fun _ => 0, ρ⟩ fun r => ∀ c : Dev nD,
      r.2.mem ((c : Thread nD τ).loc main_v0) = ofArray (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩)
    (Cert.KernelIdeal.Value.run_blocks m ρ)

end Cert.KernelIdeal.BesselValue

end
-- ==== Proof.RefRun.lean ====
/-
  The reference program as a straight line of host operations, and its run.

  The program is 102 operations in two stretches of 60 and 42.  It takes |z|; forms (|z| / 3.75)² and exp(−|z|);
  reads the seven coefficients of the small polynomial out of a constant table (the top one by a slice, the
  other six from the reversed slice of the first six) and runs Horner's rule; forms max(|z|, 3.75) and
  3.75 / max(|z|, 3.75); reads the nine coefficients of the large polynomial the same way and runs Horner's rule;
  divides by the square root; and selects between the two branches where |z| ≤ 3.75 (the selection is the one
  operation of an outlined function, listed here in its call's place).  Nothing is scoped and no operation
  allocates, so every weakly fair execution terminates with each buffer at the fold of the operations over
  the launch contents.
-/
import proofs.«147453_j14267881357866_2_alg».proof.Proof.Gen.ReferenceIdeal
import Idealize.ShloMosaic.Lib.StableHlo.Run

noncomputable section

namespace Cert.ReferenceIdeal.BesselRun

open Cert.ReferenceIdeal Cert.ReferenceIdeal.Gen Idealize.ShloMosaic Idealize.ShloMosaic.TcCoe Idealize.SL.Sem Idealize.ShloMosaic.StableHlo

variable {F : FTy → Type} [FloatOps F]

/-- The first 60 operations: |z|, the small branch whole, the large branch's argument, and the first three
    coefficients of the large polynomial. -/
abbrev opsHead : List (HloOp τ sig (Elt F)) :=
  [ StableHlo.nullary main_cst (fun i => FloatOps.ofBits .f32 (lit0 (S7.rowMajor i))),
    StableHlo.nullary main_cst_0 (fun i => FloatOps.ofBits .f32 (lit1 (S9.rowMajor i))),
    StableHlo.unary main_arg0 main_v0 (Host.absf : (⟨S16384x4096, .f32⟩ : BufTy).Contents (Elt F) → (⟨S16384x4096, .f32⟩ : BufTy).Contents (Elt F)),
    StableHlo.nullary main_cst_1 (constant S_ .f32 0x40700000#32),
    StableHlo.unary main_cst_1 main_v1 (broadcastInDim S16384x4096 ![] bcast_S_S16384x4096 : (⟨S_, .f32⟩ : BufTy).Contents (Elt F) → (⟨S16384x4096, .f32⟩ : BufTy).Contents (Elt F)),
    StableHlo.binary main_v0 main_v1 main_v2 (Host.divf : (⟨S16384x4096, .f32⟩ : BufTy).Contents (Elt F) → (⟨S16384x4096, .f32⟩ : BufTy).Contents (Elt F) → (⟨S16384x4096, .f32⟩ : BufTy).Contents (Elt F)),
    StableHlo.binary main_v2 main_v2 main_v3 (mulf : (⟨S16384x4096, .f32⟩ : BufTy).Contents (Elt F) → (⟨S16384x4096, .f32⟩ : BufTy).Contents (Elt F) → (⟨S16384x4096, .f32⟩ : BufTy).Contents (Elt F)),
    StableHlo.unary main_v0 main_v4 (Host.negf : (⟨S16384x4096, .f32⟩ : BufTy).Contents (Elt F) → (⟨S16384x4096, .f32⟩ : BufTy).Contents (Elt F)),
    StableHlo.unary main_v4 main_v5 (Host.exp : (⟨S16384x4096, .f32⟩ : BufTy).Contents (Elt F) → (⟨S16384x4096, .f32⟩ : BufTy).Contents (Elt F)),
    StableHlo.unary main_cst main_v6 ((extractStridedSlice S1 ![6] · slices_S7_S1_6) : (⟨S7, .f32⟩ : BufTy).Contents (Elt F) → (⟨S1, .f32⟩ : BufTy).Contents (Elt F)),
    StableHlo.reshape main_v6 main_v7 rfl shapeCasts_S1_S_,
    StableHlo.unary main_v7 main_v8 (broadcastInDim S16384x4096 ![] bcast_S_S16384x4096 : (⟨S_, .f32⟩ : BufTy).Contents (Elt F) → (⟨S16384x4096, .f32⟩ : BufTy).Contents (Elt F)),
    StableHlo.unary main_cst main_v9 ((extractStridedSlice S6 ![0] · slices_S7_S6_0) : (⟨S7, .f32⟩ : BufTy).Contents (Elt F) → (⟨S6, .f32⟩ : BufTy).Contents (Elt F)),
    StableHlo.unary main_v9 main_v10 (Host.reverse [0] : (⟨S6, .f32⟩ : BufTy).Contents (Elt F) → (⟨S6, .f32⟩ : BufTy).Contents (Elt F)),
    StableHlo.unary main_v10 main_v11 ((extractStridedSlice S1 ![0] · slices_S6_S1_0) : (⟨S6, .f32⟩ : BufTy).Contents (Elt F) → (⟨S1, .f32⟩ : BufTy).Contents (Elt F)),
    StableHlo.reshape main_v11 main_v12 rfl shapeCasts_S1_S_,
    StableHlo.unary main_v10 main_v13 ((extractStridedSlice S1 ![1] · slices_S6_S1_1) : (⟨S6, .f32⟩ : BufTy).Contents (Elt F) → (⟨S1, .f32⟩ : BufTy).Contents (Elt F)),
    StableHlo.reshape main_v13 main_v14 rfl shapeCasts_S1_S_,
    StableHlo.unary main_v10 main_v15 ((extractStridedSlice S1 ![2] · slices_S6_S1_2) : (⟨S6, .f32⟩ : BufTy).Contents (Elt F) → (⟨S1, .f32⟩ : BufTy).Contents (Elt F)),
    StableHlo.reshape main_v15 main_v16 rfl shapeCasts_S1_S_,
    StableHlo.unary main_v10 main_v17 ((extractStridedSlice S1 ![3] · slices_S6_S1_3) : (⟨S6, .f32⟩ : BufTy).Contents (Elt F) → (⟨S1, .f32⟩ : BufTy).Contents (Elt F)),
    StableHlo.reshape main_v17 main_v18 rfl shapeCasts_S1_S_,
    StableHlo.unary main_v10 main_v19 ((extractStridedSlice S1 ![4] · slices_S6_S1_4) : (⟨S6, .f32⟩ : BufTy).Contents (Elt F) → (⟨S1, .f32⟩ : BufTy).Contents (Elt F)),
    StableHlo.reshape main_v19 main_v20 rfl shapeCasts_S1_S_,
    StableHlo.unary main_v10 main_v21 ((extractStridedSlice S1 ![5] · slices_S6_S1_5) : (⟨S6, .f32⟩ : BufTy).Contents (Elt F) → (⟨S1, .f32⟩ : BufTy).Contents (Elt F)),
    StableHlo.reshape main_v21 main_v22 rfl shapeCasts_S1_S_,
    StableHlo.binary main_v8 main_v3 main_v23 (mulf : (⟨S16384x4096, .f32⟩ : BufTy).Contents (Elt F) → (⟨S16384x4096, .f32⟩ : BufTy).Contents (Elt F) → (⟨S16384x4096, .f32⟩ : BufTy).Contents (Elt F)),
    StableHlo.unary main_v12 main_v24 (broadcastInDim S16384x4096 ![] bcast_S_S16384x4096 : (⟨S_, .f32⟩ : BufTy).Contents (Elt F) → (⟨S16384x4096, .f32⟩ : BufTy).Contents (Elt F)),
    StableHlo.binary main_v23 main_v24 main_v25 (addf : (⟨S16384x4096, .f32⟩ : BufTy).Contents (Elt F) → (⟨S16384x4096, .f32⟩ : BufTy).Contents (Elt F) → (⟨S16384x4096, .f32⟩ : BufTy).Contents (Elt F)),
    StableHlo.binary main_v25 main_v3 main_v26 (mulf : (⟨S16384x4096, .f32⟩ : BufTy).Contents (Elt F) → (⟨S16384x4096, .f32⟩ : BufTy).Contents (Elt F) → (⟨S16384x4096, .f32⟩ : BufTy).Contents (Elt F)),
    StableHlo.unary main_v14 main_v27 (broadcastInDim S16384x4096 ![] bcast_S_S16384x4096 : (⟨S_, .f32⟩ : BufTy).Contents (Elt F) → (⟨S16384x4096, .f32⟩ : BufTy).Contents (Elt F)),
    StableHlo.binary main_v26 main_v27 main_v28 (addf : (⟨S16384x4096, .f32⟩ : BufTy).Contents (Elt F) → (⟨S16384x4096, .f32⟩ : BufTy).Contents (Elt F) → (⟨S16384x4096, .f32⟩ : BufTy).Contents (Elt F)),
    StableHlo.binary main_v28 main_v3 main_v29 (mulf : (⟨S16384x4096, .f32⟩ : BufTy).Contents (Elt F) → (⟨S16384x4096, .f32⟩ : BufTy).Contents (Elt F) → (⟨S16384x4096, .f32⟩ : BufTy).Contents (Elt F)),
    StableHlo.unary main_v16 main_v30 (broadcastInDim S16384x4096 ![] bcast_S_S16384x4096 : (⟨S_, .f32⟩ : BufTy).Contents (Elt F) → (⟨S16384x4096, .f32⟩ : BufTy).Contents (Elt F)),
    StableHlo.binary main_v29 main_v30 main_v31 (addf : (⟨S16384x4096, .f32⟩ : BufTy).Contents (Elt F) → (⟨S16384x4096, .f32⟩ : BufTy).Contents (Elt F) → (⟨S16384x4096, .f32⟩ : BufTy).Contents (Elt F)),
    StableHlo.binary main_v31 main_v3 main_v32 (mulf : (⟨S16384x4096, .f32⟩ : BufTy).Contents (Elt F) → (⟨S16384x4096, .f32⟩ : BufTy).Contents (Elt F) → (⟨S16384x4096, .f32⟩ : BufTy).Contents (Elt F)),
    StableHlo.unary main_v18 main_v33 (broadcastInDim S16384x4096 ![] bcast_S_S16384x4096 : (⟨S_, .f32⟩ : BufTy).Contents (Elt F) → (⟨S16384x4096, .f32⟩ : BufTy).Contents (Elt F)),
    StableHlo.binary main_v32 main_v33 main_v34 (addf : (⟨S16384x4096, .f32⟩ : BufTy).Contents (Elt F) → (⟨S16384x4096, .f32⟩ : BufTy).Contents (Elt F) → (⟨S16384x4096, .f32⟩ : BufTy).Contents (Elt F)),
    StableHlo.binary main_v34 main_v3 main_v35 (mulf : (⟨S16384x4096, .f32⟩ : BufTy).Contents (Elt F) → (⟨S16384x4096, .f32⟩ : BufTy).Contents (Elt F) → (⟨S16384x4096, .f32⟩ : BufTy).Contents (Elt F)),
    StableHlo.unary main_v20 main_v36 (broadcastInDim S16384x4096 ![] bcast_S_S16384x4096 : (⟨S_, .f32⟩ : BufTy).Contents (Elt F) → (⟨S16384x4096, .f32⟩ : BufTy).Contents (Elt F)),
    StableHlo.binary main_v35 main_v36 main_v37 (addf : (⟨S16384x4096, .f32⟩ : BufTy).Contents (Elt F) → (⟨S16384x4096, .f32⟩ : BufTy).Contents (Elt F) → (⟨S16384x4096, .f32⟩ : BufTy).Contents (Elt F)),
    StableHlo.binary main_v37 main_v3 main_v38 (mulf : (⟨S16384x4096, .f32⟩ : BufTy).Contents (Elt F) → (⟨S16384x4096, .f32⟩ : BufTy).Contents (Elt F) → (⟨S16384x4096, .f32⟩ : BufTy).Contents (Elt F)),
    StableHlo.unary main_v22 main_v39 (broadcastInDim S16384x4096 ![] bcast_S_S16384x4096 : (⟨S_, .f32⟩ : BufTy).Contents (Elt F) → (⟨S16384x4096, .f32⟩ : BufTy).Contents (Elt F)),
    StableHlo.binary main_v38 main_v39 main_v40 (addf : (⟨S16384x4096, .f32⟩ : BufTy).Contents (Elt F) → (⟨S16384x4096, .f32⟩ : BufTy).Contents (Elt F) → (⟨S16384x4096, .f32⟩ : BufTy).Contents (Elt F)),
    StableHlo.binary main_v5 main_v40 main_v41 (mulf : (⟨S16384x4096, .f32⟩ : BufTy).Contents (Elt F) → (⟨S16384x4096, .f32⟩ : BufTy).Contents (Elt F) → (⟨S16384x4096, .f32⟩ : BufTy).Contents (Elt F)),
    StableHlo.nullary main_cst_2 (constant S_ .f32 0x40700000#32),
    StableHlo.unary main_cst_2 main_v42 (broadcastInDim S16384x4096 ![] bcast_S_S16384x4096 : (⟨S_, .f32⟩ : BufTy).Contents (Elt F) → (⟨S16384x4096, .f32⟩ : BufTy).Contents (Elt F)),
    StableHlo.binary main_v0 main_v42 main_v43 (maximumf : (⟨S16384x4096, .f32⟩ : BufTy).Contents (Elt F) → (⟨S16384x4096, .f32⟩ : BufTy).Contents (Elt F) → (⟨S16384x4096, .f32⟩ : BufTy).Contents (Elt F)),
    StableHlo.nullary main_cst_3 (constant S_ .f32 0x40700000#32),
    StableHlo.unary main_cst_3 main_v44 (broadcastInDim S16384x4096 ![] bcast_S_S16384x4096 : (⟨S_, .f32⟩ : BufTy).Contents (Elt F) → (⟨S16384x4096, .f32⟩ : BufTy).Contents (Elt F)),
    StableHlo.binary main_v44 main_v43 main_v45 (Host.divf : (⟨S16384x4096, .f32⟩ : BufTy).Contents (Elt F) → (⟨S16384x4096, .f32⟩ : BufTy).Contents (Elt F) → (⟨S16384x4096, .f32⟩ : BufTy).Contents (Elt F)),
    StableHlo.unary main_cst_0 main_v46 ((extractStridedSlice S1 ![8] · slices_S9_S1_8) : (⟨S9, .f32⟩ : BufTy).Contents (Elt F) → (⟨S1, .f32⟩ : BufTy).Contents (Elt F)),
    StableHlo.reshape main_v46 main_v47 rfl shapeCasts_S1_S_,
    StableHlo.unary main_v47 main_v48 (broadcastInDim S16384x4096 ![] bcast_S_S16384x4096 : (⟨S_, .f32⟩ : BufTy).Contents (Elt F) → (⟨S16384x4096, .f32⟩ : BufTy).Contents (Elt F)),
    StableHlo.unary main_cst_0 main_v49 ((extractStridedSlice S8 ![0] · slices_S9_S8_0) : (⟨S9, .f32⟩ : BufTy).Contents (Elt F) → (⟨S8, .f32⟩ : BufTy).Contents (Elt F)),
    StableHlo.unary main_v49 main_v50 (Host.reverse [0] : (⟨S8, .f32⟩ : BufTy).Contents (Elt F) → (⟨S8, .f32⟩ : BufTy).Contents (Elt F)),
    StableHlo.unary main_v50 main_v51 ((extractStridedSlice S1 ![0] · slices_S8_S1_0) : (⟨S8, .f32⟩ : BufTy).Contents (Elt F) → (⟨S1, .f32⟩ : BufTy).Contents (Elt F)),
    StableHlo.reshape main_v51 main_v52 rfl shapeCasts_S1_S_,
    StableHlo.unary main_v50 main_v53 ((extractStridedSlice S1 ![1] · slices_S8_S1_1) : (⟨S8, .f32⟩ : BufTy).Contents (Elt F) → (⟨S1, .f32⟩ : BufTy).Contents (Elt F)),
    StableHlo.reshape main_v53 main_v54 rfl shapeCasts_S1_S_ ]

/-- The last 42 operations: the other six coefficients, Horner's rule for the large polynomial, the quotient by
    the square root, the comparison and the selection. -/
abbrev opsTail : List (HloOp τ sig (Elt F)) :=
  [ StableHlo.unary main_v50 main_v55 ((extractStridedSlice S1 ![2] · slices_S8_S1_2) : (⟨S8, .f32⟩ : BufTy).Contents (Elt F) → (⟨S1, .f32⟩ : BufTy).Contents (Elt F)),
    StableHlo.reshape main_v55 main_v56 rfl shapeCasts_S1_S_,
    StableHlo.unary main_v50 main_v57 ((extractStridedSlice S1 ![3] · slices_S8_S1_3) : (⟨S8, .f32⟩ : BufTy).Contents (Elt F) → (⟨S1, .f32⟩ : BufTy).Contents (Elt F)),
    StableHlo.reshape main_v57 main_v58 rfl shapeCasts_S1_S_,
    StableHlo.unary main_v50 main_v59 ((extractStridedSlice S1 ![4] · slices_S8_S1_4) : (⟨S8, .f32⟩ : BufTy).Contents (Elt F) → (⟨S1, .f32⟩ : BufTy).Contents (Elt F)),
    StableHlo.reshape main_v59 main_v60 rfl shapeCasts_S1_S_,
    StableHlo.unary main_v50 main_v61 ((extractStridedSlice S1 ![5] · slices_S8_S1_5) : (⟨S8, .f32⟩ : BufTy).Contents (Elt F) → (⟨S1, .f32⟩ : BufTy).Contents (Elt F)),
    StableHlo.reshape main_v61 main_v62 rfl shapeCasts_S1_S_,
    StableHlo.unary main_v50 main_v63 ((extractStridedSlice S1 ![6] · slices_S8_S1_6) : (⟨S8, .f32⟩ : BufTy).Contents (Elt F) → (⟨S1, .f32⟩ : BufTy).Contents (Elt F)),
    StableHlo.reshape main_v63 main_v64 rfl shapeCasts_S1_S_,
    StableHlo.unary main_v50 main_v65 ((extractStridedSlice S1 ![7] · slices_S8_S1_7) : (⟨S8, .f32⟩ : BufTy).Contents (Elt F) → (⟨S1, .f32⟩ : BufTy).Contents (Elt F)),
    StableHlo.reshape main_v65 main_v66 rfl shapeCasts_S1_S_,
    StableHlo.binary main_v48 main_v45 main_v67 (mulf : (⟨S16384x4096, .f32⟩ : BufTy).Contents (Elt F) → (⟨S16384x4096, .f32⟩ : BufTy).Contents (Elt F) → (⟨S16384x4096, .f32⟩ : BufTy).Contents (Elt F)),
    StableHlo.unary main_v52 main_v68 (broadcastInDim S16384x4096 ![] bcast_S_S16384x4096 : (⟨S_, .f32⟩ : BufTy).Contents (Elt F) → (⟨S16384x4096, .f32⟩ : BufTy).Contents (Elt F)),
    StableHlo.binary main_v67 main_v68 main_v69 (addf : (⟨S16384x4096, .f32⟩ : BufTy).Contents (Elt F) → (⟨S16384x4096, .f32⟩ : BufTy).Contents (Elt F) → (⟨S16384x4096, .f32⟩ : BufTy).Contents (Elt F)),
    StableHlo.binary main_v69 main_v45 main_v70 (mulf : (⟨S16384x4096, .f32⟩ : BufTy).Contents (Elt F) → (⟨S16384x4096, .f32⟩ : BufTy).Contents (Elt F) → (⟨S16384x4096, .f32⟩ : BufTy).Contents (Elt F)),
    StableHlo.unary main_v54 main_v71 (broadcastInDim S16384x4096 ![] bcast_S_S16384x4096 : (⟨S_, .f32⟩ : BufTy).Contents (Elt F) → (⟨S16384x4096, .f32⟩ : BufTy).Contents (Elt F)),
    StableHlo.binary main_v70 main_v71 main_v72 (addf : (⟨S16384x4096, .f32⟩ : BufTy).Contents (Elt F) → (⟨S16384x4096, .f32⟩ : BufTy).Contents (Elt F) → (⟨S16384x4096, .f32⟩ : BufTy).Contents (Elt F)),
    StableHlo.binary main_v72 main_v45 main_v73 (mulf : (⟨S16384x4096, .f32⟩ : BufTy).Contents (Elt F) → (⟨S16384x4096, .f32⟩ : BufTy).Contents (Elt F) → (⟨S16384x4096, .f32⟩ : BufTy).Contents (Elt F)),
    StableHlo.unary main_v56 main_v74 (broadcastInDim S16384x4096 ![] bcast_S_S16384x4096 : (⟨S_, .f32⟩ : BufTy).Contents (Elt F) → (⟨S16384x4096, .f32⟩ : BufTy).Contents (Elt F)),
    StableHlo.binary main_v73 main_v74 main_v75 (addf : (⟨S16384x4096, .f32⟩ : BufTy).Contents (Elt F) → (⟨S16384x4096, .f32⟩ : BufTy).Contents (Elt F) → (⟨S16384x4096, .f32⟩ : BufTy).Contents (Elt F)),
    StableHlo.binary main_v75 main_v45 main_v76 (mulf : (⟨S16384x4096, .f32⟩ : BufTy).Contents (Elt F) → (⟨S16384x4096, .f32⟩ : BufTy).Contents (Elt F) → (⟨S16384x4096, .f32⟩ : BufTy).Contents (Elt F)),
    StableHlo.unary main_v58 main_v77 (broadcastInDim S16384x4096 ![] bcast_S_S16384x4096 : (⟨S_, .f32⟩ : BufTy).Contents (Elt F) → (⟨S16384x4096, .f32⟩ : BufTy).Contents (Elt F)),
    StableHlo.binary main_v76 main_v77 main_v78 (addf : (⟨S16384x4096, .f32⟩ : BufTy).Contents (Elt F) → (⟨S16384x4096, .f32⟩ : BufTy).Contents (Elt F) → (⟨S16384x4096, .f32⟩ : BufTy).Contents (Elt F)),
    StableHlo.binary main_v78 main_v45 main_v79 (mulf : (⟨S16384x4096, .f32⟩ : BufTy).Contents (Elt F) → (⟨S16384x4096, .f32⟩ : BufTy).Contents (Elt F) → (⟨S16384x4096, .f32⟩ : BufTy).Contents (Elt F)),
    StableHlo.unary main_v60 main_v80 (broadcastInDim S16384x4096 ![] bcast_S_S16384x4096 : (⟨S_, .f32⟩ : BufTy).Contents (Elt F) → (⟨S16384x4096, .f32⟩ : BufTy).Contents (Elt F)),
    StableHlo.binary main_v79 main_v80 main_v81 (addf : (⟨S16384x4096, .f32⟩ : BufTy).Contents (Elt F) → (⟨S16384x4096, .f32⟩ : BufTy).Contents (Elt F) → (⟨S16384x4096, .f32⟩ : BufTy).Contents (Elt F)),
    StableHlo.binary main_v81 main_v45 main_v82 (mulf : (⟨S16384x4096, .f32⟩ : BufTy).Contents (Elt F) → (⟨S16384x4096, .f32⟩ : BufTy).Contents (Elt F) → (⟨S16384x4096, .f32⟩ : BufTy).Contents (Elt F)),
    StableHlo.unary main_v62 main_v83 (broadcastInDim S16384x4096 ![] bcast_S_S16384x4096 : (⟨S_, .f32⟩ : BufTy).Contents (Elt F) → (⟨S16384x4096, .f32⟩ : BufTy).Contents (Elt F)),
    StableHlo.binary main_v82 main_v83 main_v84 (addf : (⟨S16384x4096, .f32⟩ : BufTy).Contents (Elt F) → (⟨S16384x4096, .f32⟩ : BufTy).Contents (Elt F) → (⟨S16384x4096, .f32⟩ : BufTy).Contents (Elt F)),
    StableHlo.binary main_v84 main_v45 main_v85 (mulf : (⟨S16384x4096, .f32⟩ : BufTy).Contents (Elt F) → (⟨S16384x4096, .f32⟩ : BufTy).Contents (Elt F) → (⟨S16384x4096, .f32⟩ : BufTy).Contents (Elt F)),
    StableHlo.unary main_v64 main_v86 (broadcastInDim S16384x4096 ![] bcast_S_S16384x4096 : (⟨S_, .f32⟩ : BufTy).Contents (Elt F) → (⟨S16384x4096, .f32⟩ : BufTy).Contents (Elt F)),
    StableHlo.binary main_v85 main_v86 main_v87 (addf : (⟨S16384x4096, .f32⟩ : BufTy).Contents (Elt F) → (⟨S16384x4096, .f32⟩ : BufTy).Contents (Elt F) → (⟨S16384x4096, .f32⟩ : BufTy).Contents (Elt F)),
    StableHlo.binary main_v87 main_v45 main_v88 (mulf : (⟨S16384x4096, .f32⟩ : BufTy).Contents (Elt F) → (⟨S16384x4096, .f32⟩ : BufTy).Contents (Elt F) → (⟨S16384x4096, .f32⟩ : BufTy).Contents (Elt F)),
    StableHlo.unary main_v66 main_v89 (broadcastInDim S16384x4096 ![] bcast_S_S16384x4096 : (⟨S_, .f32⟩ : BufTy).Contents (Elt F) → (⟨S16384x4096, .f32⟩ : BufTy).Contents (Elt F)),
    StableHlo.binary main_v88 main_v89 main_v90 (addf : (⟨S16384x4096, .f32⟩ : BufTy).Contents (Elt F) → (⟨S16384x4096, .f32⟩ : BufTy).Contents (Elt F) → (⟨S16384x4096, .f32⟩ : BufTy).Contents (Elt F)),
    StableHlo.unary main_v43 main_v91 (Host.sqrt : (⟨S16384x4096, .f32⟩ : BufTy).Contents (Elt F) → (⟨S16384x4096, .f32⟩ : BufTy).Contents (Elt F)),
    StableHlo.binary main_v90 main_v91 main_v92 (Host.divf : (⟨S16384x4096, .f32⟩ : BufTy).Contents (Elt F) → (⟨S16384x4096, .f32⟩ : BufTy).Contents (Elt F) → (⟨S16384x4096, .f32⟩ : BufTy).Contents (Elt F)),
    StableHlo.nullary main_cst_4 (constant S_ .f32 0x40700000#32),
    StableHlo.unary main_cst_4 main_v93 (broadcastInDim S16384x4096 ![] bcast_S_S16384x4096 : (⟨S_, .f32⟩ : BufTy).Contents (Elt F) → (⟨S16384x4096, .f32⟩ : BufTy).Contents (Elt F)),
    StableHlo.binary main_v0 main_v93 main_v94 (cmpf .ole : (⟨S16384x4096, .f32⟩ : BufTy).Contents (Elt F) → (⟨S16384x4096, .f32⟩ : BufTy).Contents (Elt F) → (⟨S16384x4096, .i1⟩ : BufTy).Contents (Elt F)),
    TRef.ternary (.of main_v94) (.of main_v41) (.of main_v92) main_call0.v0 select ]

/-- All 102, in order. -/
abbrev ops : List (HloOp τ sig (Elt F)) := opsHead ++ opsTail

set_option maxRecDepth 8192 in
set_option maxHeartbeats 4000000 in
theorem head_eq (c : Dev nD) : main_part0 (F := F) c = seq opsHead := rfl

set_option maxRecDepth 8192 in
set_option maxHeartbeats 4000000 in
theorem tail_eq (c : Dev nD) : main_part1 (F := F) c = seq opsTail := rfl

set_option maxRecDepth 8192 in
theorem main_eq (c : Dev nD) : main (F := F) c = seq ops := by
  simp only [ops, seq_append, ← head_eq c, ← tail_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem head_sub : (opsHead : List (HloOp τ sig (Elt F))).Forall fun op => op.bufs ⊆ tcRefs τ sig :=
  ⟨nullary_bufs_sub .., nullary_bufs_sub .., unary_bufs_sub .., nullary_bufs_sub .., unary_bufs_sub .., binary_bufs_sub .., binary_bufs_sub .., unary_bufs_sub .., unary_bufs_sub .., unary_bufs_sub .., reshape_bufs_sub .., unary_bufs_sub .., unary_bufs_sub .., unary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., nullary_bufs_sub .., unary_bufs_sub .., binary_bufs_sub .., nullary_bufs_sub .., unary_bufs_sub .., binary_bufs_sub .., unary_bufs_sub .., reshape_bufs_sub .., unary_bufs_sub .., unary_bufs_sub .., unary_bufs_sub .., unary_bufs_sub .., reshape_bufs_sub .., unary_bufs_sub .., reshape_bufs_sub ..⟩

set_option maxRecDepth 8192 in
theorem tail_sub : (opsTail : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., binary_bufs_sub .., unary_bufs_sub .., binary_bufs_sub .., unary_bufs_sub .., binary_bufs_sub .., nullary_bufs_sub .., unary_bufs_sub .., binary_bufs_sub .., ternary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h
    exacts [List.forall_iff_forall_mem.mp head_sub op h, List.forall_iff_forall_mem.mp tail_sub op h]

/-- The fold of a concatenation is the fold of the second line over the fold of the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- Every weakly fair execution of the reference terminates with every buffer at the fold of the second stretch
    over the fold of the first over the launch contents. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b)
        = after opsTail (after opsHead (launchContents m c)) (Proc.devRef .tc b) :=
  (θ_run defs _ _).mono (fun _ h c b => (h c b).trans (congrFun (after_append opsHead opsTail _) _))
    (run_seq scopedRefs_eq scopedSems_eq defs main (fun _ => ops) main_eq (fun _ => ops_sub) m ρ)

end Cert.ReferenceIdeal.BesselRun

end
-- ==== Proof.RefArray.lean ====
/-
  The reference's 102 operations restated as whole-array operations of the argument, one line each in the
  program's order (the names follow the program's values): |z|; (|z| / 3.75)²; exp(−|z|); the seven coefficients
  of the small polynomial out of the first constant table (the top one by a slice, the others from the reversed
  slice of the first six) and Horner's rule; max(|z|, 3.75) and 3.75 / max(|z|, 3.75); the nine coefficients of the
  large polynomial out of the second table and Horner's rule; the quotient by the square root; the comparison
  |z| ≤ 3.75 and the selection.
-/
import proofs.«147453_j14267881357866_2_alg».proof.Proof.Gen.ReferenceIdeal
import Idealize.ShloMosaic.PureOps.Ideal

noncomputable section

namespace Cert.ReferenceIdeal.BesselValue

open Cert.ReferenceIdeal Cert.ReferenceIdeal.Gen Idealize.ShloMosaic

/-- The reference's result array as one function of its argument array `r_arg0`. -/
def wholeArray (r_arg0 : FVec Ideal S16384x4096 .f32) : FVec Ideal S16384x4096 .f32 :=
  have r_cst : FVec Ideal S7 .f32 := fun i => FloatOps.ofBits .f32 (lit0 (S7.rowMajor i))
  have r_cst_0 : FVec Ideal S9 .f32 := fun i => FloatOps.ofBits .f32 (lit1 (S9.rowMajor i))
  have r_v0 : FVec Ideal S16384x4096 .f32 := Host.absf r_arg0
  have r_cst_1 : FVec Ideal S_ .f32 := constant S_ .f32 0x40700000#32
  have r_v1 : FVec Ideal S16384x4096 .f32 := broadcastInDim S16384x4096 ![] bcast_S_S16384x4096 r_cst_1
  have r_v2 : FVec Ideal S16384x4096 .f32 := Host.divf r_v0 r_v1
  have r_v3 : FVec Ideal S16384x4096 .f32 := mulf r_v2 r_v2
  have r_v4 : FVec Ideal S16384x4096 .f32 := Host.negf r_v0
  have r_v5 : FVec Ideal S16384x4096 .f32 := Host.exp r_v4
  have r_v6 : FVec Ideal S1 .f32 := extractStridedSlice S1 ![6] r_cst slices_S7_S1_6
  have r_v7 : FVec Ideal S_ .f32 := shapeCast S_ r_v6 shapeCasts_S1_S_
  have r_v8 : FVec Ideal S16384x4096 .f32 := broadcastInDim S16384x4096 ![] bcast_S_S16384x4096 r_v7
  have r_v9 : FVec Ideal S6 .f32 := extractStridedSlice S6 ![0] r_cst slices_S7_S6_0
  have r_v10 : FVec Ideal S6 .f32 := Host.reverse [0] r_v9
  have r_v11 : FVec Ideal S1 .f32 := extractStridedSlice S1 ![0] r_v10 slices_S6_S1_0
  have r_v12 : FVec Ideal S_ .f32 := shapeCast S_ r_v11 shapeCasts_S1_S_
  have r_v13 : FVec Ideal S1 .f32 := extractStridedSlice S1 ![1] r_v10 slices_S6_S1_1
  have r_v14 : FVec Ideal S_ .f32 := shapeCast S_ r_v13 shapeCasts_S1_S_
  have r_v15 : FVec Ideal S1 .f32 := extractStridedSlice S1 ![2] r_v10 slices_S6_S1_2
  have r_v16 : FVec Ideal S_ .f32 := shapeCast S_ r_v15 shapeCasts_S1_S_
  have r_v17 : FVec Ideal S1 .f32 := extractStridedSlice S1 ![3] r_v10 slices_S6_S1_3
  have r_v18 : FVec Ideal S_ .f32 := shapeCast S_ r_v17 shapeCasts_S1_S_
  have r_v19 : FVec Ideal S1 .f32 := extractStridedSlice S1 ![4] r_v10 slices_S6_S1_4
  have r_v20 : FVec Ideal S_ .f32 := shapeCast S_ r_v19 shapeCasts_S1_S_
  have r_v21 : FVec Ideal S1 .f32 := extractStridedSlice S1 ![5] r_v10 slices_S6_S1_5
  have r_v22 : FVec Ideal S_ .f32 := shapeCast S_ r_v21 shapeCasts_S1_S_
  have r_v23 : FVec Ideal S16384x4096 .f32 := mulf r_v8 r_v3
  have r_v24 : FVec Ideal S16384x4096 .f32 := broadcastInDim S16384x4096 ![] bcast_S_S16384x4096 r_v12
  have r_v25 : FVec Ideal S16384x4096 .f32 := addf r_v23 r_v24
  have r_v26 : FVec Ideal S16384x4096 .f32 := mulf r_v25 r_v3
  have r_v27 : FVec Ideal S16384x4096 .f32 := broadcastInDim S16384x4096 ![] bcast_S_S16384x4096 r_v14
  have r_v28 : FVec Ideal S16384x4096 .f32 := addf r_v26 r_v27
  have r_v29 : FVec Ideal S16384x4096 .f32 := mulf r_v28 r_v3
  have r_v30 : FVec Ideal S16384x4096 .f32 := broadcastInDim S16384x4096 ![] bcast_S_S16384x4096 r_v16
  have r_v31 : FVec Ideal S16384x4096 .f32 := addf r_v29 r_v30
  have r_v32 : FVec Ideal S16384x4096 .f32 := mulf r_v31 r_v3
  have r_v33 : FVec Ideal S16384x4096 .f32 := broadcastInDim S16384x4096 ![] bcast_S_S16384x4096 r_v18
  have r_v34 : FVec Ideal S16384x4096 .f32 := addf r_v32 r_v33
  have r_v35 : FVec Ideal S16384x4096 .f32 := mulf r_v34 r_v3
  have r_v36 : FVec Ideal S16384x4096 .f32 := broadcastInDim S16384x4096 ![] bcast_S_S16384x4096 r_v20
  have r_v37 : FVec Ideal S16384x4096 .f32 := addf r_v35 r_v36
  have r_v38 : FVec Ideal S16384x4096 .f32 := mulf r_v37 r_v3
  have r_v39 : FVec Ideal S16384x4096 .f32 := broadcastInDim S16384x4096 ![] bcast_S_S16384x4096 r_v22
  have r_v40 : FVec Ideal S16384x4096 .f32 := addf r_v38 r_v39
  have r_v41 : FVec Ideal S16384x4096 .f32 := mulf r_v5 r_v40
  have r_cst_2 : FVec Ideal S_ .f32 := constant S_ .f32 0x40700000#32
  have r_v42 : FVec Ideal S16384x4096 .f32 := broadcastInDim S16384x4096 ![] bcast_S_S16384x4096 r_cst_2
  have r_v43 : FVec Ideal S16384x4096 .f32 := maximumf r_v0 r_v42
  have r_cst_3 : FVec Ideal S_ .f32 := constant S_ .f32 0x40700000#32
  have r_v44 : FVec Ideal S16384x4096 .f32 := broadcastInDim S16384x4096 ![] bcast_S_S16384x4096 r_cst_3
  have r_v45 : FVec Ideal S16384x4096 .f32 := Host.divf r_v44 r_v43
  have r_v46 : FVec Ideal S1 .f32 := extractStridedSlice S1 ![8] r_cst_0 slices_S9_S1_8
  have r_v47 : FVec Ideal S_ .f32 := shapeCast S_ r_v46 shapeCasts_S1_S_
  have r_v48 : FVec Ideal S16384x4096 .f32 := broadcastInDim S16384x4096 ![] bcast_S_S16384x4096 r_v47
  have r_v49 : FVec Ideal S8 .f32 := extractStridedSlice S8 ![0] r_cst_0 slices_S9_S8_0
  have r_v50 : FVec Ideal S8 .f32 := Host.reverse [0] r_v49
  have r_v51 : FVec Ideal S1 .f32 := extractStridedSlice S1 ![0] r_v50 slices_S8_S1_0
  have r_v52 : FVec Ideal S_ .f32 := shapeCast S_ r_v51 shapeCasts_S1_S_
  have r_v53 : FVec Ideal S1 .f32 := extractStridedSlice S1 ![1] r_v50 slices_S8_S1_1
  have r_v54 : FVec Ideal S_ .f32 := shapeCast S_ r_v53 shapeCasts_S1_S_
  have r_v55 : FVec Ideal S1 .f32 := extractStridedSlice S1 ![2] r_v50 slices_S8_S1_2
  have r_v56 : FVec Ideal S_ .f32 := shapeCast S_ r_v55 shapeCasts_S1_S_
  have r_v57 : FVec Ideal S1 .f32 := extractStridedSlice S1 ![3] r_v50 slices_S8_S1_3
  have r_v58 : FVec Ideal S_ .f32 := shapeCast S_ r_v57 shapeCasts_S1_S_
  have r_v59 : FVec Ideal S1 .f32 := extractStridedSlice S1 ![4] r_v50 slices_S8_S1_4
  have r_v60 : FVec Ideal S_ .f32 := shapeCast S_ r_v59 shapeCasts_S1_S_
  have r_v61 : FVec Ideal S1 .f32 := extractStridedSlice S1 ![5] r_v50 slices_S8_S1_5
  have r_v62 : FVec Ideal S_ .f32 := shapeCast S_ r_v61 shapeCasts_S1_S_
  have r_v63 : FVec Ideal S1 .f32 := extractStridedSlice S1 ![6] r_v50 slices_S8_S1_6
  have r_v64 : FVec Ideal S_ .f32 := shapeCast S_ r_v63 shapeCasts_S1_S_
  have r_v65 : FVec Ideal S1 .f32 := extractStridedSlice S1 ![7] r_v50 slices_S8_S1_7
  have r_v66 : FVec Ideal S_ .f32 := shapeCast S_ r_v65 shapeCasts_S1_S_
  have r_v67 : FVec Ideal S16384x4096 .f32 := mulf r_v48 r_v45
  have r_v68 : FVec Ideal S16384x4096 .f32 := broadcastInDim S16384x4096 ![] bcast_S_S16384x4096 r_v52
  have r_v69 : FVec Ideal S16384x4096 .f32 := addf r_v67 r_v68
  have r_v70 : FVec Ideal S16384x4096 .f32 := mulf r_v69 r_v45
  have r_v71 : FVec Ideal S16384x4096 .f32 := broadcastInDim S16384x4096 ![] bcast_S_S16384x4096 r_v54
  have r_v72 : FVec Ideal S16384x4096 .f32 := addf r_v70 r_v71
  have r_v73 : FVec Ideal S16384x4096 .f32 := mulf r_v72 r_v45
  have r_v74 : FVec Ideal S16384x4096 .f32 := broadcastInDim S16384x4096 ![] bcast_S_S16384x4096 r_v56
  have r_v75 : FVec Ideal S16384x4096 .f32 := addf r_v73 r_v74
  have r_v76 : FVec Ideal S16384x4096 .f32 := mulf r_v75 r_v45
  have r_v77 : FVec Ideal S16384x4096 .f32 := broadcastInDim S16384x4096 ![] bcast_S_S16384x4096 r_v58
  have r_v78 : FVec Ideal S16384x4096 .f32 := addf r_v76 r_v77
  have r_v79 : FVec Ideal S16384x4096 .f32 := mulf r_v78 r_v45
  have r_v80 : FVec Ideal S16384x4096 .f32 := broadcastInDim S16384x4096 ![] bcast_S_S16384x4096 r_v60
  have r_v81 : FVec Ideal S16384x4096 .f32 := addf r_v79 r_v80
  have r_v82 : FVec Ideal S16384x4096 .f32 := mulf r_v81 r_v45
  have r_v83 : FVec Ideal S16384x4096 .f32 := broadcastInDim S16384x4096 ![] bcast_S_S16384x4096 r_v62
  have r_v84 : FVec Ideal S16384x4096 .f32 := addf r_v82 r_v83
  have r_v85 : FVec Ideal S16384x4096 .f32 := mulf r_v84 r_v45
  have r_v86 : FVec Ideal S16384x4096 .f32 := broadcastInDim S16384x4096 ![] bcast_S_S16384x4096 r_v64
  have r_v87 : FVec Ideal S16384x4096 .f32 := addf r_v85 r_v86
  have r_v88 : FVec Ideal S16384x4096 .f32 := mulf r_v87 r_v45
  have r_v89 : FVec Ideal S16384x4096 .f32 := broadcastInDim S16384x4096 ![] bcast_S_S16384x4096 r_v66
  have r_v90 : FVec Ideal S16384x4096 .f32 := addf r_v88 r_v89
  have r_v91 : FVec Ideal S16384x4096 .f32 := Host.sqrt r_v43
  have r_v92 : FVec Ideal S16384x4096 .f32 := Host.divf r_v90 r_v91
  have r_cst_4 : FVec Ideal S_ .f32 := constant S_ .f32 0x40700000#32
  have r_v93 : FVec Ideal S16384x4096 .f32 := broadcastInDim S16384x4096 ![] bcast_S_S16384x4096 r_cst_4
  have r_v94 : IVec S16384x4096 1 := cmpf .ole r_v0 r_v93
  have r_v95 : FVec Ideal S16384x4096 .f32 := select r_v94 r_v41 r_v92
  r_v95

end Cert.ReferenceIdeal.BesselValue

end
-- ==== Proof.RefFold.lean ====
/-
  The reference's run, read back: its result buffer ends at `wholeArray` of its argument buffer.

  Each of the 102 operations writes one buffer of its own and reads buffers written before it, so the fold of the
  operations over any launch contents, read at the result buffer, is the operations' composition, which is
  `wholeArray` of the contents of the argument buffer line for line; and no operation writes the argument buffer.
-/
import proofs.«147453_j14267881357866_2_alg».proof.Proof.RefRun
import proofs.«147453_j14267881357866_2_alg».proof.Proof.RefArray

noncomputable section

namespace Cert.ReferenceIdeal.BesselValue

open Cert.ReferenceIdeal Cert.ReferenceIdeal.Gen Cert.ReferenceIdeal.BesselRun
open Idealize.ShloMosaic Idealize.ShloMosaic.TcCoe Idealize.SL.Sem Idealize.ShloMosaic.StableHlo

set_option maxRecDepth 16384 in
set_option maxHeartbeats 40000000 in
/-- The fold of the 102 operations, read at the result buffer, is `wholeArray` of the argument buffer. -/
theorem fold_result (V : Valuation τ sig (Elt Ideal)) :
    after opsTail (after opsHead V) (Proc.devRef .tc main_v95) = wholeArray (V (Proc.devRef .tc main_arg0)) := by
  after_results_simp <;> rfl

set_option maxRecDepth 16384 in
set_option maxHeartbeats 40000000 in
/-- No operation writes the argument buffer. -/
theorem fold_argument (V : Valuation τ sig (Elt Ideal)) :
    after opsTail (after opsHead V) (Proc.devRef .tc main_arg0) = V (Proc.devRef .tc main_arg0) := by
  after_results_simp

/-- Every weakly fair execution of the reference ends with its result buffer at `wholeArray` of the argument as
    launched, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v95) = wholeArray (m ((c.tc : Thread nD τ).loc main_arg0))
      ∧ r.2.mem ((c.tc : Thread nD τ).loc main_arg0) = m ((c.tc : Thread nD τ).loc main_arg0) :=
  (θ_run defs _ _).mono (fun _ h c => ⟨(h c main_v95).trans (fold_result (launchContents m c)),
      (h c main_arg0).trans (fold_argument (launchContents m c))⟩)
    (run_fold m ρ)

end Cert.ReferenceIdeal.BesselValue

end
-- ==== Proof.LibTableEntry.lean ====
/-
  Reading one entry of a small constant table as a full-size array.

  A program that evaluates a polynomial by Horner's rule from a coefficient vector takes each coefficient out of the
  vector as a slice of one element, reshapes it to a scalar and broadcasts the scalar to the shape of the argument;
  all coefficients but the top one are taken from the REVERSED prefix of the vector.  Read at any index of the
  result these are entries of the vector: the slice [k:k+1] gives entry k, and entry k of the reversed prefix of
  length p is entry p − 1 − k of the vector.  A dense constant given by its row-major table of words reads, at the
  rank-one index with coordinate a, the word at a.  Stated for any element type and any extents.
-/
import Idealize.ShloMosaic.Lib.Pipeline.Value
import Idealize.ShloMosaic.Lib.ValueIdx

noncomputable section

namespace Cert.LibTableEntry

open Idealize.ShloMosaic Idealize.ShloMosaic.ValueIdx

variable {α : Type}

/-- The one index of the scalar shape has row-major position 0. -/
theorem rowMajor_scalar (j : (⟨0, ![]⟩ : Shape).Idx) : ((⟨0, ![]⟩ : Shape).rowMajor j).val = 0 := by
  have h := ((⟨0, ![]⟩ : Shape).rowMajor j).isLt
  have e : (⟨0, ![]⟩ : Shape).numel = 1 := by decide
  omega

/-- Entry k of a vector — cut out as the slice [k:k+1], reshaped to a scalar, broadcast to any shape — is read at
    every index of the result. -/
theorem entry_broadcast_apply {n : Nat} {t : Shape} (x : (⟨1, ![n]⟩ : Shape).Idx → α) (k : Nat)
    (hs : (⟨1, ![n]⟩ : Shape).Slices ![k] ⟨1, ![1]⟩) (hc : (⟨1, ![1]⟩ : Shape).ShapeCasts ⟨0, ![]⟩)
    (hb : (⟨0, ![]⟩ : Shape).BroadcastsInDim t (![] : Fin 0 → Fin t.rank)) (hk : k < n) (j : t.Idx) :
    broadcastInDim t ![] hb (shapeCast ⟨0, ![]⟩ (extractStridedSlice ⟨1, ![1]⟩ ![k] x hs) hc) j
      = x (ix1 ⟨k, hk⟩) := by
  refine (broadcastInDim_apply (s := ⟨0, ![]⟩) ![] hb _ j ix0 (fun a => a.elim0)).trans ?_
  refine (shapeCast_apply (s := ⟨1, ![1]⟩) (t := ⟨0, ![]⟩) _ hc ix0 (ix1 (0 : Fin 1)) ?_).trans ?_
  · rw [Shape.rowMajor_val_one, rowMajor_scalar]; rfl
  · exact extractStridedSlice_apply ![k] x hs (ix1 (0 : Fin 1)) (ix1 ⟨k, hk⟩)
      (fun a => by match a with | ⟨0, _⟩ => rfl)

/-- Entry k of the reversed prefix of length p of a vector is entry p − 1 − k of the vector. -/
theorem reversed_prefix_apply {n p : Nat} (x : (⟨1, ![n]⟩ : Shape).Idx → α)
    (hs : (⟨1, ![n]⟩ : Shape).Slices ![0] ⟨1, ![p]⟩) (k : Fin p) (hk : p - 1 - k.val < n) :
    Host.reverse (s := ⟨1, ![p]⟩) [0] (extractStridedSlice ⟨1, ![p]⟩ ![0] x hs) (ix1 k)
      = x (ix1 ⟨p - 1 - k.val, hk⟩) := by
  unfold Host.reverse
  refine extractStridedSlice_apply ![0] x hs _ (ix1 ⟨p - 1 - k.val, hk⟩) (fun a => ?_)
  match a with
  | ⟨0, _⟩ =>
    show p - 1 - k.val = 0 + ((if (0 : Fin 1) ∈ [(0 : Fin 1)] then (k : Fin p).rev else k) : Fin p).val
    rw [if_pos (List.mem_singleton.mpr rfl), Fin.val_rev]
    have := k.isLt
    omega

/-- A dense rank-one constant given by its row-major table reads, at coordinate a, the table's entry at position a
    (positions are numbered below the number of elements, which for one axis is its extent: h). -/
theorem table_apply {n : Nat} {β : Type} (f : Fin (⟨1, ![n]⟩ : Shape).numel → β) (a : Fin n)
    (h : n = (⟨1, ![n]⟩ : Shape).numel) :
    f ((⟨1, ![n]⟩ : Shape).rowMajor (ix1 a)) = f (a.cast h) :=
  congrArg f (Fin.ext (Shape.rowMajor_val_one _))

end Cert.LibTableEntry

end
-- ==== Proof.RefEntry.lean ====
/-
  The reference's whole-array function read at an index.

  Every operation but the coefficient reads is pointwise.  A coefficient read — a slice of one element of a
  constant table, or of the reversed prefix of the table, reshaped to a scalar and broadcast to the argument's
  shape — is the same extended real at every index: the table's word at a fixed position.  The small polynomial's
  coefficients come out in the order of positions 6, 5, …, 0 of the first table and the large polynomial's in the
  order 8, 7, …, 0 of the second, which is Horner's rule from the top coefficient down; so at every index the
  function is the entry formula, in its quotient spelling, of the argument at that index.
-/
import proofs.«147453_j14267881357866_2_alg».proof.Proof.RefArray
import proofs.«147453_j14267881357866_2_alg».proof.Proof.Entry
import proofs.«147453_j14267881357866_2_alg».proof.Proof.LibTableEntry

noncomputable section

namespace Cert.ReferenceIdeal.BesselValue

open Cert.ReferenceIdeal Cert.ReferenceIdeal.Gen
open Idealize.ShloMosaic Idealize.ShloMosaic.ValueIdx Cert.BesselEntry Cert.LibTableEntry

/-- A coefficient array: entry k of a vector, sliced out, reshaped to a scalar and broadcast to the argument's
    shape, is the constant array of that entry. -/
theorem coefficient_eq {n : Nat} (x : (⟨1, ![n]⟩ : Shape).Idx → Ideal .f32) (k : Nat)
    (hs : (⟨1, ![n]⟩ : Shape).Slices ![k] S1) (hk : k < n) :
    broadcastInDim S16384x4096 ![] bcast_S_S16384x4096 (shapeCast S_ (extractStridedSlice S1 ![k] x hs) shapeCasts_S1_S_)
      = fun _ => x (ix1 ⟨k, hk⟩) :=
  funext fun j => entry_broadcast_apply x k hs shapeCasts_S1_S_ bcast_S_S16384x4096 hk j

/-- The row-major position of a rank-one index is its coordinate. -/
theorem position_ix1 {n : Nat} (a : Fin n) (h : n = (⟨1, ![n]⟩ : Shape).numel) :
    (⟨1, ![n]⟩ : Shape).rowMajor (ix1 a) = a.cast h :=
  Fin.ext (Shape.rowMajor_val_one _)

set_option maxRecDepth 16384 in
set_option maxHeartbeats 4000000 in
/-- At every index the reference's function is the entry formula (quotient spelling) of the argument there. -/
theorem wholeArray_apply (x : FVec Ideal S16384x4096 .f32) (i : S16384x4096.Idx) :
    wholeArray x i = entryDiv (x i) := by
  unfold wholeArray
  -- the sixteen coefficient arrays are constant arrays of table entries
  rw [coefficient_eq _ 6 slices_S7_S1_6 (by decide),
    coefficient_eq _ 0 slices_S6_S1_0 (by decide),
    coefficient_eq _ 1 slices_S6_S1_1 (by decide),
    coefficient_eq _ 2 slices_S6_S1_2 (by decide),
    coefficient_eq _ 3 slices_S6_S1_3 (by decide),
    coefficient_eq _ 4 slices_S6_S1_4 (by decide),
    coefficient_eq _ 5 slices_S6_S1_5 (by decide),
    coefficient_eq _ 8 slices_S9_S1_8 (by decide),
    coefficient_eq _ 0 slices_S8_S1_0 (by decide),
    coefficient_eq _ 1 slices_S8_S1_1 (by decide),
    coefficient_eq _ 2 slices_S8_S1_2 (by decide),
    coefficient_eq _ 3 slices_S8_S1_3 (by decide),
    coefficient_eq _ 4 slices_S8_S1_4 (by decide),
    coefficient_eq _ 5 slices_S8_S1_5 (by decide),
    coefficient_eq _ 6 slices_S8_S1_6 (by decide),
    coefficient_eq _ 7 slices_S8_S1_7 (by decide)]
  -- an entry of a reversed prefix is an entry of the table
  rw [reversed_prefix_apply _ slices_S7_S6_0 ⟨0, by decide⟩ (by decide),
    reversed_prefix_apply _ slices_S7_S6_0 ⟨1, by decide⟩ (by decide),
    reversed_prefix_apply _ slices_S7_S6_0 ⟨2, by decide⟩ (by decide),
    reversed_prefix_apply _ slices_S7_S6_0 ⟨3, by decide⟩ (by decide),
    reversed_prefix_apply _ slices_S7_S6_0 ⟨4, by decide⟩ (by decide),
    reversed_prefix_apply _ slices_S7_S6_0 ⟨5, by decide⟩ (by decide),
    reversed_prefix_apply _ slices_S9_S8_0 ⟨0, by decide⟩ (by decide),
    reversed_prefix_apply _ slices_S9_S8_0 ⟨1, by decide⟩ (by decide),
    reversed_prefix_apply _ slices_S9_S8_0 ⟨2, by decide⟩ (by decide),
    reversed_prefix_apply _ slices_S9_S8_0 ⟨3, by decide⟩ (by decide),
    reversed_prefix_apply _ slices_S9_S8_0 ⟨4, by decide⟩ (by decide),
    reversed_prefix_apply _ slices_S9_S8_0 ⟨5, by decide⟩ (by decide),
    reversed_prefix_apply _ slices_S9_S8_0 ⟨6, by decide⟩ (by decide),
    reversed_prefix_apply _ slices_S9_S8_0 ⟨7, by decide⟩ (by decide)]
  -- the row-major position of a rank-one index is its coordinate; what is left is pointwise
  have h7 : 7 = S7.numel := by decide
  have h9 : 9 = S9.numel := by decide
  repeat rw [position_ix1 _ h7]
  repeat rw [position_ix1 _ h9]
  rfl

end Cert.ReferenceIdeal.BesselValue

end
-- ==== Proof.lean ====
/-
  The exponentially scaled modified Bessel function of order zero, i0e(z) = exp(−|z|) · I0(z), by its two classical
  polynomial pieces, elementwise over a 16384 × 4096 array: a pipelined kernel against a plain array program.

  Both compute, at every entry z with a = |z|,

      if a ≤ 3.75 then  exp(−a) · P((a / 3.75)²)   else   Q(3.75 / b) ÷ √b,      b = max(a, 3.75),

  P of degree 6 and Q of degree 8 by Horner's rule, the coefficients the same sixteen float words on both sides
  (the kernel spells them in place, the reference reads them out of two constant tables).  The kernel writes the
  exponent as 0 − a and multiplies Q by the reciprocal square root of b; the reference writes −a and divides by the
  square root of b.  On the extended reals 0 − a = −a, and because b ≥ 3.75 > 0 the product with the reciprocal root
  is the quotient by the root (also at b = +∞, where both are Q · 0).  So the two entries are one extended real for
  every z, finite or not, and the precondition is not used.

  The kernel's result array is that entry formula of its argument array, index by index, because its 32 blocks of
  512 rows each are the formula of the same block of the argument and tile the array; the reference's result array is
  the composition of its 102 whole-array operations, which at an index is the same formula.  The three frames are the
  runs with the values forgotten, and the kernel's idealization rewrote nothing.
-/
import proofs.«147453_j14267881357866_2_alg».proof.Defs
import proofs.«147453_j14267881357866_2_alg».proof.Proof.Gen.Kernel
import proofs.«147453_j14267881357866_2_alg».proof.Proof.Gen.Kernel.Skeleton
import proofs.«147453_j14267881357866_2_alg».proof.Proof.Gen.Kernel.Launch
import proofs.«147453_j14267881357866_2_alg».proof.Proof.Gen.Kernel.Points
import proofs.«147453_j14267881357866_2_alg».proof.Proof.Gen.Kernel.Frame
import proofs.«147453_j14267881357866_2_alg».proof.Proof.Gen.KernelIdeal
import proofs.«147453_j14267881357866_2_alg».proof.Proof.Gen.KernelIdeal.Skeleton
import proofs.«147453_j14267881357866_2_alg».proof.Proof.Gen.KernelIdeal.Launch
import proofs.«147453_j14267881357866_2_alg».proof.Proof.Gen.KernelIdeal.Points
import proofs.«147453_j14267881357866_2_alg».proof.Proof.Gen.KernelIdeal.Frame
import proofs.«147453_j14267881357866_2_alg».proof.Proof.Gen.KernelIdeal.Value
import proofs.«147453_j14267881357866_2_alg».proof.Proof.Gen.ReferenceIdeal
import proofs.«147453_j14267881357866_2_alg».proof.Proof.Gen.Pre_finite_inputs
import proofs.«147453_j14267881357866_2_alg».proof.Proof.Entry
import proofs.«147453_j14267881357866_2_alg».proof.Proof.KernelValue
import proofs.«147453_j14267881357866_2_alg».proof.Proof.RefFold
import proofs.«147453_j14267881357866_2_alg».proof.Proof.RefEntry
import Idealize.ShloMosaic.Adequacy
import Idealize.ShloMosaic.Init

noncomputable section

namespace Cert.Proof

open Idealize.ShloMosaic Idealize.ShloMosaic.TcCoe Idealize.SL.Sem

/-- The kernel as printed runs and leaves its argument alone. -/
theorem frame_kernel : Cert.frame_Kernel := fun m ρ _ => Cert.Kernel.Gen.frame m ρ

/-- So does the kernel read at the extended reals. -/
theorem frame_kernelIdeal : Cert.frame_KernelIdeal := fun m ρ _ => Cert.KernelIdeal.Gen.frame m ρ

/-- The reference's frame is its run with the result forgotten. -/
theorem frame_reference : Cert.frame_ReferenceIdeal := fun m ρ _ =>
  (θ_run Cert.ReferenceIdeal.defs _ _).mono (fun _ h c => (h c).2) (Cert.ReferenceIdeal.BesselValue.run m ρ)

/-- The idealization rewrote no operation. -/
theorem preserves : Cert.preserves_Kernel_KernelIdeal := trivial

/-- From memories that agree on the argument both programs end with the same result array: the kernel's is the
    entry formula in its product spelling of the argument, the reference's the formula in its quotient spelling,
    and the two spellings are one extended real at every entry. -/
theorem algebraic : Cert.algebraic_KernelIdeal_ReferenceIdeal := by
  intro m ρ m' ρ' _ hagree
  refine ⟨_, Cert.KernelIdeal.BesselValue.run m ρ, ?_⟩
  refine (θ_run Cert.ReferenceIdeal.defs _ _).mono (fun _ h c => ⟨(h c).1.trans ?_, (h c).2⟩)
    (Cert.ReferenceIdeal.BesselValue.run m' ρ')
  rw [hagree c]
  funext i
  exact (Cert.ReferenceIdeal.BesselValue.wholeArray_apply _ i).trans (Cert.BesselEntry.entryMul_eq _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
